-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192 : Shape := ⟨2, ![4, 8192]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : FVec F S4x8192x3 .f32) (main_arg1 : FVec F S4x8192x3 .f32) (main_arg2 : FVec F S4x8192 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  main_v13
-- ==== Kernel.lean ====
abbrev S4x8192x3 : Shape := ⟨3, ![4, 8192, 3]⟩
abbrev S4x8192 : Shape := ⟨2, ![4, 8192]⟩
abbrev S4x3x8192 : Shape := ⟨3, ![4, 3, 8192]⟩
abbrev S4x8192x1 : Shape := ⟨3, ![4, 8192, 1]⟩
abbrev S1x1024x3 : Shape := ⟨3, ![1, 1024, 3]⟩
abbrev S1x3x2048 : Shape := ⟨3, ![1, 3, 2048]⟩
abbrev S1x1024x1 : Shape := ⟨3, ![1, 1024, 1]⟩
abbrev S1024x1 : Shape := ⟨2, ![1024, 1]⟩
abbrev S1024x3 : Shape := ⟨2, ![1024, 3]⟩
abbrev S3x2048 : Shape := ⟨2, ![3, 2048]⟩
abbrev S1024 : Shape := ⟨1, ![1024]⟩
abbrev S2048 : Shape := ⟨1, ![2048]⟩
abbrev S1x2048 : Shape := ⟨2, ![1, 2048]⟩
abbrev S1024x2048 : Shape := ⟨2, ![1024, 2048]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x3x8192, .f32⟩
  | .hbm, ⟨4, _⟩ => ⟨S4x8192x1, .f32⟩
  | .hbm, ⟨5, _⟩ => ⟨S4x8192x1, .f32⟩
  | .hbm, ⟨6, _⟩ => ⟨S4x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_14 : BitVec 32 := 0#32
  let v47 : BitVec 1 := Scalar.cmpi .ne v46 c0_i32_14
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4x8192x3_S4x3x8192_0_2_1 : S4x8192x3.Transposes [0, 2, 1] S4x3x8192
  shapeCasts_S4x8192_S4x8192x1 : S4x8192.ShapeCasts S4x8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  slices_S1024x3_o0_0_S1024x1 : S1024x3.Slices ![0, 0] S1024x1
  slices_S3x2048_o0_0_S1x2048 : S3x2048.Slices ![0, 0] S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  reduces_S1024x2048_S1024 : S1024x2048.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S4x8192x1_S4x8192 : S4x8192x1.ShapeCasts S4x8192
  reducesTo_S4x8192_S_d0_1 : S4x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S4x8192x1.size a
  hwx0_3 : ∀ i : grid0.Coords, EltTy.bits .f32 = 32 ∨ (Rect.block (s := S4x8192x1) S1x1024x1.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x8192 : Shape := ⟨2, ![4, 8192]⟩
abbrev S_ : Shape := ⟨0, ![]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the nearest-neighbour distance, free of any program.

  For two clouds of 8192 points in three coordinates per batch entry, the clamped squared distance between
  point n of the first cloud and point m of the second is
      max ((|x_n|^2 + |y_m|^2) - 2 * <x_n, y_m>) 0,
  the nearest squared distance of point n is the minimum of these over all m, starting from +infinity, and the
  weighted distance is its square root times the point's weight.

  A minimum over all 8192 candidates can be taken 2048 candidates at a time: the running minimum over the
  candidates below 2048 * j, joined with the minimum of the next 2048, is the running minimum over the candidates
  below 2048 * (j + 1).  Minima are carried by their universal property (c is below a minimum exactly when it is
  below every entry), so no order of evaluation enters.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Nearest

/-- The float pattern both reductions start from is +infinity. -/
theorem inf_eq_top : Ideal.ofBits .f32 0x7F800000#32 = (⊤ : EReal) := by simp [Ideal.ofBits, Ideal.ieee]

/-! ## Running minima over the first k candidates -/

/-- The minimum of f over the candidates with number below k, from +infinity. -/
def minBelow (f : Fin 8192 → EReal) (k : ℕ) : EReal :=
  (Finset.univ.filter fun mm : Fin 8192 => mm.val < k).fold min ⊤ f

/-- c is below the running minimum exactly when it is below every candidate counted so far. -/
theorem le_minBelow (f : Fin 8192 → EReal) (k : ℕ) (c : EReal) :
    c ≤ minBelow f k ↔ ∀ mm : Fin 8192, mm.val < k → c ≤ f mm := by
  unfold minBelow
  rw [Finset.le_fold_min]
  simp only [le_top, true_and, Finset.mem_filter, Finset.mem_univ]

/-- Over no candidate the running minimum is +infinity. -/
theorem minBelow_zero (f : Fin 8192 → EReal) : minBelow f 0 = ⊤ :=
  eq_top_iff.mpr ((le_minBelow f 0 ⊤).mpr fun _ h => absurd h (Nat.not_lt_zero _))

/-- Over all 8192 candidates it is the minimum over all of them. -/
theorem minBelow_full (f : Fin 8192 → EReal) : minBelow f 8192 = Finset.univ.fold min ⊤ f := by
  unfold minBelow
  rw [Finset.filter_true_of_mem fun mm _ => mm.isLt]

/-- One tile more: the running minimum below 2048 * j joined with the minimum g of the next 2048 candidates
    (g l is candidate 2048 * j + l) is the running minimum below 2048 * (j + 1). -/
theorem minBelow_step (f : Fin 8192 → EReal) (j : ℕ) (hj : j < 4) (g : Fin 2048 → EReal)
    (hg : ∀ (l : Fin 2048) (mm : Fin 8192), mm.val = 2048 * j + l.val → g l = f mm) :
    min (minBelow f (2048 * j)) (Finset.univ.fold min ⊤ g) = minBelow f (2048 * (j + 1)) := by
  refine eq_of_forall_le_iff fun c => ?_
  rw [le_min_iff, le_minBelow, le_minBelow, Finset.le_fold_min]
  constructor
  · rintro ⟨h1, -, h2⟩ mm hmm
    by_cases h : mm.val < 2048 * j
    · exact h1 mm h
    · have h3 := h2 ⟨mm.val - 2048 * j, by omega⟩ (Finset.mem_univ _)
      rwa [hg _ mm (by show mm.val = 2048 * j + (mm.val - 2048 * j); omega)] at h3
  · intro h
    refine ⟨fun mm hmm => h mm (by omega), le_top, fun l _ => ?_⟩
    have hl := l.isLt
    rw [hg l ⟨2048 * j + l.val, by omega⟩ rfl]
    exact h _ (by show 2048 * j + l.val < 2048 * (j + 1); omega)

/-! ## The distances -/

/-- A cloud: batch entry, point, coordinate. -/
abbrev Cloud : Shape := ⟨3, ![4, 8192, 3]⟩
/-- The weights: batch entry, point. -/
abbrev Weights : Shape := ⟨2, ![4, 8192]⟩

/-- The squared length of point n. -/
def sqNorm (X : Cloud.Idx → EReal) (b : Fin 4) (n : Fin 8192) : EReal :=
  ∑ k : Fin 3, X (ix3 b n k) * X (ix3 b n k)

/-- The inner product of point n of X and point mm of Y. -/
def inner3 (X Y : Cloud.Idx → EReal) (b : Fin 4) (n mm : Fin 8192) : EReal :=
  ∑ k : Fin 3, X (ix3 b n k) * Y (ix3 b mm k)

/-- The squared distance by the expanded square, clamped at zero. -/
def sqDist (X Y : Cloud.Idx → EReal) (b : Fin 4) (n mm : Fin 8192) : EReal :=
  max ((sqNorm X b n + sqNorm Y b mm) - Ideal.ofBits .f32 0x40000000#32 * inner3 X Y b n mm)
    (Ideal.ofBits .f32 0x00000000#32)

/-- The nearest squared distance of point n: the minimum over every point of Y, from +infinity. -/
def nearest (X Y : Cloud.Idx → EReal) (b : Fin 4) (n : Fin 8192) : EReal :=
  Finset.univ.fold min ⊤ fun mm => sqDist X Y b n mm

/-- The weighted nearest distance of point n. -/
def weighted (X Y : Cloud.Idx → EReal) (W : Weights.Idx → EReal) (b : Fin 4) (n : Fin 8192) : EReal :=
  Ideal.sqrt (nearest X Y b n) * W (ix2 b n)

/-- The nearest squared distance is the running minimum over all candidates. -/
theorem nearest_eq_minBelow (X Y : Cloud.Idx → EReal) (b : Fin 4) (n : Fin 8192) :
    nearest X Y b n = minBelow (fun mm => sqDist X Y b n mm) 8192 := (minBelow_full _).symm

end Cert.Nearest

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.Tile.lean ====
/-
  The body's arithmetic at one entry, read at the extended reals.

  A tile of the body sees 1024 points x (as rows of three coordinates) and 2048 points y (as three rows of
  coordinates).  For row r its candidate minimum is the minimum, over the 2048 columns l, from +infinity, of
      max ((|x_r|^2 + |y_l|^2) - 2 * ((x_r0 * y_0l + x_r1 * y_1l) + x_r2 * y_2l)) 0.
  The running minimum is joined with it by min; the last step takes the square root and multiplies by the weight.
-/
import proofs.«137180_j58342835749039_2_alg».proof.Proof.Gen.KernelIdeal.Skeleton
import proofs.«137180_j58342835749039_2_alg».proof.Proof.Spec
import proofs.«137180_j58342835749039_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Cert.LibColumnLayout

namespace Cert.KernelIdeal.Tile

open Cert.KernelIdeal Cert.KernelIdeal.Gen Cert.Nearest

/-! ## Reductions kept as a column or a row -/

/-- A row minimum kept as a column: at (r, u) the minimum over the row's 2048 entries, from +infinity. -/
theorem colMin_apply (v : FVec Ideal S1024x2048 .f32) (r : Fin 1024) (u : Fin 1) :
    shapeCast S1024x1 (multiReduction (F := Ideal) .minimumf [1] S1024 v 0x7F800000#32 reduces_S1024x2048_S1024 (.inl rfl) rfl)
        shapeCasts_S1024_S1024x1 (ix2 r u)
      = Finset.univ.fold min ⊤ (fun l : Fin 2048 => v (ix2 r l)) := by
  refine (shapeCast_a_a1_apply _ _ r u).trans ?_
  refine (multiReduction_minimumf_eq_fold (F := Ideal) v _ reduces_S1024x2048_S1024 _ _ (ix1 r)).trans ?_
  refine (reduces_S1024x2048_S1024.fold_filter_drop_single _ _ v (ix1 r)).trans ?_
  have e : (v ∘ reduces_S1024x2048_S1024.lift (ix1 r)) = fun l : Fin 2048 => v (ix2 r l) :=
    funext fun l => congrArg v (funext fun a => Fin.ext (by match a with | ⟨0, _⟩ => rfl | ⟨1, _⟩ => rfl))
  show Finset.univ.fold min (Ideal.ofBits .f32 0x7F800000#32) (v ∘ reduces_S1024x2048_S1024.lift (ix1 r)) = _
  rw [e, inf_eq_top]
  rfl

/-- A row sum kept as a column: at (r, u) the sum of the row's three entries. -/
theorem colSum_apply (v : FVec Ideal S1024x3 .f32) (r : Fin 1024) (u : Fin 1) :
    shapeCast S1024x1 (multiReduction (F := Ideal) .add [1] S1024 v 0x00000000#32 reduces_S1024x3_S1024 (.inl rfl) rfl)
        shapeCasts_S1024_S1024x1 (ix2 r u)
      = ∑ k : Fin 3, v (ix2 r k) := by
  refine (shapeCast_a_a1_apply _ _ r u).trans ?_
  refine (Ideal.multiReduction_add_single v _ reduces_S1024x3_S1024 _ _ (ix1 r)).trans ?_
  exact Finset.sum_congr rfl fun k _ => congrArg v (funext fun a => Fin.ext (by match a with | ⟨0, _⟩ => rfl | ⟨1, _⟩ => rfl))

/-- A column sum kept as a row: at (u, l) the sum of the column's three entries. -/
theorem rowSum_apply (v : FVec Ideal S3x2048 .f32) (u : Fin 1) (l : Fin 2048) :
    shapeCast S1x2048 (multiReduction (F := Ideal) .add [0] S2048 v 0x00000000#32 reduces_S3x2048_S2048 (.inl rfl) rfl)
        shapeCasts_S2048_S1x2048 (ix2 u l)
      = ∑ k : Fin 3, v (ix2 k l) := by
  refine (shapeCast_a_1a_apply _ _ u l).trans ?_
  refine (Ideal.multiReduction_add_single v _ reduces_S3x2048_S2048 _ _ (ix1 l)).trans ?_
  exact Finset.sum_congr rfl fun k _ => congrArg v (funext fun a => Fin.ext (by match a with | ⟨0, _⟩ => rfl | ⟨1, _⟩ => rfl))

/-! ## The tile's candidate minimum -/

/-- One entry of the tile's distance matrix, from the loaded blocks. -/
def tileCell (x0 : Vec Ideal S1x1024x3 .f32) (x1 : Vec Ideal S1x3x2048 .f32) (r : Fin 1024) (l : Fin 2048) : EReal :=
  max (((∑ k : Fin 3, x0 (ix3 (0 : Fin 1) r k) * x0 (ix3 (0 : Fin 1) r k))
        + ∑ k : Fin 3, x1 (ix3 (0 : Fin 1) k l) * x1 (ix3 (0 : Fin 1) k l))
      - Ideal.ofBits .f32 0x40000000#32
        * ((x0 (ix3 (0 : Fin 1) r (0 : Fin 3)) * x1 (ix3 (0 : Fin 1) (0 : Fin 3) l)
            + x0 (ix3 (0 : Fin 1) r (1 : Fin 3)) * x1 (ix3 (0 : Fin 1) (1 : Fin 3) l))
          + x0 (ix3 (0 : Fin 1) r (2 : Fin 3)) * x1 (ix3 (0 : Fin 1) (2 : Fin 3) l)))
    (Ideal.ofBits .f32 0x00000000#32)

theorem tileMin_apply (x0 : Vec Ideal S1x1024x3 .f32) (x1 : Vec Ideal S1x3x2048 .f32) (r : Fin 1024) (u : Fin 1) :
    k0_pay4 (F := Ideal) x0 x1 (ix2 r u) = Finset.univ.fold min ⊤ (fun l : Fin 2048 => tileCell x0 x1 r l) := by
  unfold k0_pay4
  refine (colMin_apply _ r u).trans ?_
  refine congrArg (Finset.univ.fold min ⊤) (funext fun l => ?_)
  have hx : ∀ k : Fin 3, shapeCast S1024x3 x0 shapeCasts_S1x1024x3_S1024x3 (ix2 r k) = x0 (ix3 (0 : Fin 1) r k) :=
    fun k => shapeCast_1ab_ab_apply x0 _ r k
  have hy : ∀ k : Fin 3, shapeCast S3x2048 x1 shapeCasts_S1x3x2048_S3x2048 (ix2 k l) = x1 (ix3 (0 : Fin 1) k l) :=
    fun k => shapeCast_1ab_ab_apply x1 _ k l
  unfold tileCell
  refine (maximumf_apply _ _ _).trans (congrArg₂ max ?_ rfl)
  refine (subf_apply _ _ _).trans (congrArg₂ (· - ·) ?_ ?_)
  · refine (addf_apply _ _ _).trans (congrArg₂ (· + ·) ?_ ?_)
    · refine (broadcastTo_a1_ab_apply _ _ r l).trans ((colSum_apply _ r 0).trans (Finset.sum_congr rfl fun k _ => ?_))
      exact (mulf_apply _ _ _).trans (congrArg₂ (· * ·) (hx k) (hx k))
    · refine (broadcastTo_1b_ab_apply _ _ r l).trans ((rowSum_apply _ 0 l).trans (Finset.sum_congr rfl fun k _ => ?_))
      exact (mulf_apply _ _ _).trans (congrArg₂ (· * ·) (hy k) (hy k))
  · refine (mulf_apply _ _ _).trans (congrArg₂ (· * ·) rfl ?_)
    refine (addf_apply _ _ _).trans (congrArg₂ (· + ·) ((addf_apply _ _ _).trans (congrArg₂ (· + ·) ?_ ?_)) ?_)
    · refine (mulf_apply _ _ _).trans (congrArg₂ (· * ·) ?_ ?_)
      · exact (broadcastTo_a1_ab_apply _ _ r l).trans ((slice2_axis1_apply 0 _ _ r (0 : Fin 1) (0 : Fin 3) rfl).trans (hx 0))
      · exact (broadcastTo_1b_ab_apply _ _ r l).trans ((slice2_axis0_apply 0 _ _ (0 : Fin 1) l (0 : Fin 3) rfl).trans (hy 0))
    · refine (mulf_apply _ _ _).trans (congrArg₂ (· * ·) ?_ ?_)
      · exact (broadcastTo_a1_ab_apply _ _ r l).trans ((slice2_axis1_apply 1 _ _ r (0 : Fin 1) (1 : Fin 3) rfl).trans (hx 1))
      · exact (broadcastTo_1b_ab_apply _ _ r l).trans ((slice2_axis0_apply 1 _ _ (0 : Fin 1) l (1 : Fin 3) rfl).trans (hy 1))
    · refine (mulf_apply _ _ _).trans (congrArg₂ (· * ·) ?_ ?_)
      · exact (broadcastTo_a1_ab_apply _ _ r l).trans ((slice2_axis1_apply 2 _ _ r (0 : Fin 1) (2 : Fin 3) rfl).trans (hx 2))
      · exact (broadcastTo_1b_ab_apply _ _ r l).trans ((slice2_axis0_apply 2 _ _ (0 : Fin 1) l (2 : Fin 3) rfl).trans (hy 2))

/-- When the blocks' entries are entries of two clouds X and Y — row r is point n, column l is point mm of batch
    entry b — the tile's matrix entry is the clamped squared distance of the two points: the three products added
    in the body's order are the inner product. -/
theorem tileCell_congr (x0 : Vec Ideal S1x1024x3 .f32) (x1 : Vec Ideal S1x3x2048 .f32) (X Y : Cloud.Idx → EReal)
    (r : Fin 1024) (l : Fin 2048) (b : Fin 4) (n mm : Fin 8192)
    (hx : ∀ k : Fin 3, x0 (ix3 (0 : Fin 1) r k) = X (ix3 b n k))
    (hy : ∀ k : Fin 3, x1 (ix3 (0 : Fin 1) k l) = Y (ix3 b mm k)) :
    tileCell x0 x1 r l = sqDist X Y b n mm := by
  unfold tileCell sqDist sqNorm inner3
  simp only [hx, hy, Fin.sum_univ_three]

/-! ## The other three stored values -/

/-- The reset value is +infinity everywhere. -/
theorem reset_apply (j : S1024x1.Idx) : k0_pay3 (F := Ideal) j = ⊤ := by
  unfold k0_pay3
  exact (congrFun (shapeCast_self _ _) j).trans inf_eq_top

/-- The join: the running minimum and the candidate, entry by entry. -/
theorem join_apply (cand : FVec Ideal S1024x1 .f32) (run : Vec Ideal S1024x1 .f32) (j : S1024x1.Idx) :
    k0_pay1 (F := Ideal) cand run j = min (run j) (cand j) := by
  unfold k0_pay1
  exact congrFun (shapeCast_self _ _) j

/-- The output entry: the square root of the finished minimum times the weight. -/
theorem finish_apply (fin : Vec Ideal S1024x1 .f32) (w : Vec Ideal S1x1024x1 .f32) (u : Fin 1) (r : Fin 1024) (z : Fin 1) :
    k0_pay2 (F := Ideal) fin w (ix3 u r z) = Ideal.sqrt (fin (ix2 r z)) * w (ix3 (0 : Fin 1) r z) := by
  unfold k0_pay2
  refine (shapeCast_ab_1ab_apply _ _ u r z).trans ?_
  refine (mulf_apply _ _ _).trans (congrArg₂ (· * ·) rfl ?_)
  exact shapeCast_1ab_ab_apply w _ r z

end Cert.KernelIdeal.Tile

end
-- ==== Proof.Cases.lean ====
/-
  What each control case of the body leaves behind, as terms of what it loaded.

  At the first tile of a row block the running minimum is reset to +infinity and then joined with the tile's
  candidate minimum; at a later tile the running minimum the tile before left is joined with it; at the last tile
  the output block is, besides, the square root of the finished minimum times the weight block.
-/
import proofs.«137180_j58342835749039_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile that is not the last: the running minimum joined with the tile's candidate. -/
theorem scratch_B (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : ¬cond0_1 i)
    (x0 : Vec F S1x1024x3 .f32) (x1 : Vec F S1x3x2048 .f32) (x2 : Vec F S1x1024x1 .f32) (xs0 : Vec F S1024x1 .f32) :
    sout0_B_0 c i arg3 harg3 arg4 harg4 arg5 harg5 arg6 harg6 arg7 harg7 hc0 hc1 x0 x1 x2 xs0 = k0_pay1 (k0_pay4 x0 x1) xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread, View.ld_unit_zero (S := S1x1024x3) hz3, View.ld_unit_zero (S := S1x3x2048) hz3, View.ld_unit_zero (S := S1x1024x1) hz3, View.ld_unit_zero (S := S1024x1) hz2]

/-- The last tile: the same for the running minimum. -/
theorem scratch_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 : Vec F S1x1024x3 .f32) (x1 : Vec F S1x3x2048 .f32) (x2 : Vec F S1x1024x1 .f32) (xs0 : Vec F S1024x1 .f32) :
    sout0_C_0 c i arg3 harg3 arg4 harg4 arg5 harg5 arg6 harg6 arg7 harg7 hc0 hc1 x0 x1 x2 xs0 = k0_pay1 (k0_pay4 x0 x1) xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread, View.ld_unit_zero (S := S1x1024x3) hz3, View.ld_unit_zero (S := S1x3x2048) hz3, View.ld_unit_zero (S := S1x1024x1) hz3, View.ld_unit_zero (S := S1024x1) hz2]

/-- The last tile's output block: from the running minimum it has just stored, read back. -/
theorem out_C (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1024x1 .f32) (harg7 : arg7.IsWhole) (hc0 : ¬cond0_0 i) (hc1 : cond0_1 i)
    (x0 : Vec F S1x1024x3 .f32) (x1 : Vec F S1x3x2048 .f32) (x2 : Vec F S1x1024x1 .f32) (xs0 : Vec F S1024x1 .f32) :
    out0_C_3 c i arg3 harg3 arg4 harg4 arg5 harg5 arg6 harg6 arg7 harg7 hc0 hc1 x0 x1 x2 xs0 = k0_pay2 (k0_pay1 (k0_pay4 x0 x1) xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg3.read_unread, harg4.read_unread, harg5.read_unread, harg7.read_unread, View.ld_unit_zero (S := S1x1024x3) hz3, View.ld_unit_zero (S := S1x3x2048) hz3, View.ld_unit_zero (S := S1x1024x1) hz3, View.ld_unit_zero (S := S1024x1) hz2]
  rw [View.readCov_unit_zero (S := S1024x1) _ hz2]

/-- The first tile: +infinity, stored and read back, joined with the tile's candidate. -/
theorem scratch_A (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1024x1 .f32) (harg7 : arg7.IsWhole) (hc0 : cond0_0 i) (hc1 : ¬cond0_1 i)
    (x0 : Vec F S1x1024x3 .f32) (x1 : Vec F S1x3x2048 .f32) (x2 : Vec F S1x1024x1 .f32) :
    sout0_A_0 c i arg3 harg3 arg4 harg4 arg5 harg5 arg6 harg6 arg7 harg7 hc0 hc1 x0 x1 x2 = k0_pay1 (k0_pay4 x0 x1) (k0_pay3 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1) hz2]
  simp only [View.readAt_eq_ld, harg3.read_unread, harg4.read_unread, harg5.read_unread, harg7.read_unread, View.ld_unit_zero (S := S1x1024x3) hz3, View.ld_unit_zero (S := S1x3x2048) hz3, View.ld_unit_zero (S := S1x1024x1) hz3, View.ld_unit_zero (S := S1024x1) hz2]
  rw [View.readCov_unit_zero (S := S1024x1) _ hz2]

end Cert.KernelIdeal.Cases

end
-- ==== Proof.Blocks.lean ====
/-
  The input blocks a grid point sees, as entries of the argument arrays.

  Grid point t = 32 b + 4 i + j works on batch entry b, rows 1024 i .. 1024 i + 1023 of the first cloud and
  points 2048 j .. 2048 j + 2047 of the second.  The second cloud reaches the call transposed (coordinates as
  rows) and the weights with a trailing unit axis; both are undone here, so that every block entry is named as an
  entry of an argument.
-/
import proofs.«137180_j58342835749039_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## Where the blocks sit -/

theorem where_x : ∀ t : Fin cfg0.N, win0_0.index t 0 = t.val / 32 ∧ win0_0.index t 1 = t.val / 4 % 8 ∧ win0_0.index t 2 = 0 :=
  (by decide +kernel : ∀ t : Fin grid0.N, win0_0.index t 0 = t.val / 32 ∧ win0_0.index t 1 = t.val / 4 % 8 ∧ win0_0.index t 2 = 0)
theorem where_y : ∀ t : Fin cfg0.N, win0_1.index t 0 = t.val / 32 ∧ win0_1.index t 1 = 0 ∧ win0_1.index t 2 = t.val % 4 :=
  (by decide +kernel : ∀ t : Fin grid0.N, win0_1.index t 0 = t.val / 32 ∧ win0_1.index t 1 = 0 ∧ win0_1.index t 2 = t.val % 4)
theorem where_w : ∀ t : Fin cfg0.N, win0_2.index t 0 = t.val / 32 ∧ win0_2.index t 1 = t.val / 4 % 8 ∧ win0_2.index t 2 = 0 :=
  (by decide +kernel : ∀ t : Fin grid0.N, win0_2.index t 0 = t.val / 32 ∧ win0_2.index t 1 = t.val / 4 % 8 ∧ win0_2.index t 2 = 0)
theorem where_o : ∀ t : Fin cfg0.N, win0_3.index t 0 = t.val / 32 ∧ win0_3.index t 1 = t.val / 4 % 8 ∧ win0_3.index t 2 = 0 :=
  (by decide +kernel : ∀ t : Fin grid0.N, win0_3.index t 0 = t.val / 32 ∧ win0_3.index t 1 = t.val / 4 % 8 ∧ win0_3.index t 2 = 0)

/-! ## The two arrays the host prepares -/

/-- The second cloud enters the call with its last two axes exchanged. -/
theorem entry_y (c : Dev nD) : (V m c main_v0 : S4x3x8192.Idx → Elt F .f32)
    = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- The weights enter it with a trailing unit axis. -/
theorem entry_w (c : Dev nD) : (V m c main_v1 : S4x8192x1.Idx → Elt F .f32)
    = shapeCast S4x8192x1 (m ((c : Thread nD τ).loc main_arg2)) shapeCasts_S4x8192_S4x8192x1 := by
  show StableHlo.after hostOps0 (fun b => m (c, b)) (Proc.devRef .tc main_v1) = _
  after_results
  rfl

/-! ## A block entry is an argument entry -/

/-- Row r, coordinate k of the first cloud's block at t is point 1024 i + r of batch entry b. -/
theorem xblk_apply (c : Dev nD) (t : Fin cfg0.N) (r : Fin 1024) (k : Fin 3) (b : Fin 4) (n : Fin 8192)
    (hb : b.val = t.val / 32) (hn : n.val = 1024 * (t.val / 4 % 8) + r.val) :
    (iblk m c 0 t : Vec F S1x1024x3 .f32) (ix3 (0 : Fin 1) r k)
      = (m ((c : Thread nD τ).loc main_arg0) : S4x8192x3.Idx → Elt F .f32) (ix3 b n k) := by
  obtain ⟨h0, h1, h2⟩ := where_x t
  unfold iblk
  rw [View.read_apply]
  show V m c main_arg0 _ = _
  rw [V_main_arg0]
  refine congrArg _ (funext fun a => Fin.ext ?_)
  match a with
  | ⟨0, _⟩ => show win0_0.index t 0 * 1 + 1 * ((0 : Fin 1) : ℕ) = b.val; rw [h0, hb]; simp
  | ⟨1, _⟩ => show win0_0.index t 1 * 1024 + 1 * r.val = n.val; rw [h1, hn]; omega
  | ⟨2, _⟩ => show win0_0.index t 2 * 3 + 1 * k.val = k.val; rw [h2]; omega

/-- Coordinate k, column l of the second cloud's block at t is point 2048 j + l of batch entry b. -/
theorem yblk_apply (c : Dev nD) (t : Fin cfg0.N) (k : Fin 3) (l : Fin 2048) (b : Fin 4) (mm : Fin 8192)
    (hb : b.val = t.val / 32) (hmm : mm.val = 2048 * (t.val % 4) + l.val) :
    (iblk m c 1 t : Vec F S1x3x2048 .f32) (ix3 (0 : Fin 1) k l)
      = (m ((c : Thread nD τ).loc main_arg1) : S4x8192x3.Idx → Elt F .f32) (ix3 b mm k) := by
  obtain ⟨h0, h1, h2⟩ := where_y t
  unfold iblk
  rw [View.read_apply]
  show V m c main_v0 _ = _
  refine (congrFun (entry_y m c) _).trans ?_
  refine transpose_apply _ _ _ _ (ix3 b mm k) fun a => ?_
  match a with
  | ⟨0, _⟩ => show b.val = win0_1.index t 0 * 1 + 1 * ((0 : Fin 1) : ℕ); rw [h0, hb]; simp
  | ⟨1, _⟩ => show k.val = win0_1.index t 1 * 3 + 1 * k.val; rw [h1]; omega
  | ⟨2, _⟩ => show mm.val = win0_1.index t 2 * 2048 + 1 * l.val; rw [h2, hmm]; omega

/-- Row r of the weight block at t is the weight of point 1024 i + r of batch entry b. -/
theorem wblk_apply (c : Dev nD) (t : Fin cfg0.N) (r : Fin 1024) (z : Fin 1) (b : Fin 4) (n : Fin 8192)
    (hb : b.val = t.val / 32) (hn : n.val = 1024 * (t.val / 4 % 8) + r.val) :
    (iblk m c 2 t : Vec F S1x1024x1 .f32) (ix3 (0 : Fin 1) r z)
      = (m ((c : Thread nD τ).loc main_arg2) : S4x8192.Idx → Elt F .f32) (ix2 b n) := by
  obtain ⟨h0, h1, h2⟩ := where_w t
  unfold iblk
  rw [View.read_apply]
  show V m c main_v1 _ = _
  refine (congrFun (entry_w m c) _).trans ?_
  refine shapeCast_apply _ _ _ (ix2 b n) ?_
  rw [Shape.rowMajor_val_two, Shape.rowMajor_val_three]
  have hz : z.val = 0 := by omega
  show b.val * 8192 + n.val = ((win0_2.index t 0 * 1 + 1 * ((0 : Fin 1) : ℕ)) * 8192 + (win0_2.index t 1 * 1024 + 1 * r.val)) * 1 + (win0_2.index t 2 * 1 + 1 * z.val)
  rw [h0, h1, h2, hb, hn, hz]
  simp
  exact Nat.mul_comm _ _

end Cert.KernelIdeal.Blocks

end
-- ==== Proof.Running.lean ====
/-
  The running minimum across the grid, and the output block it ends in.

  The grid visits, for every batch entry b and row block i, the four column tiles j = 0, 1, 2, 3 in turn
  (point t = 32 b + 4 i + j).  After tile j the scratch row r holds the minimum, from +infinity, of the clamped
  squared distances from point 1024 i + r to the points below 2048 (j + 1) of the second cloud: by induction on
  the point, the first tile of a block starting afresh, every later tile joining its 2048 candidates.  After
  the fourth tile that is the nearest squared distance, and the output block is its square root times the weight.
-/
import proofs.«137180_j58342835749039_2_alg».proof.Proof.Tile
import proofs.«137180_j58342835749039_2_alg».proof.Proof.Cases
import proofs.«137180_j58342835749039_2_alg».proof.Proof.Blocks

noncomputable section

open Idealize.ShloMosaic Idealize.ShloMosaic.TcCoe Idealize.SL.Sem Idealize.ShloMosaic.ValueIdx

namespace Cert.KernelIdeal.Running

open Cert.KernelIdeal Cert.KernelIdeal.Gen Cert.Nearest
open Cert.KernelIdeal.Tile Cert.KernelIdeal.Cases Cert.KernelIdeal.Blocks

variable (m : (ℓ : Loc nD τ sig) → Buf (Elt Ideal) ℓ)

/-- The first cloud, the second cloud and the weights, as launched on core c. -/
abbrev X (c : Dev nD) : Cloud.Idx → EReal := m ((c : Thread nD τ).loc main_arg0)
abbrev Y (c : Dev nD) : Cloud.Idx → EReal := m ((c : Thread nD τ).loc main_arg1)
abbrev W (c : Dev nD) : Weights.Idx → EReal := m ((c : Thread nD τ).loc main_arg2)

/-- The tile's candidate minimum for row r at point t. -/
theorem candidate (c : Dev nD) (t : Fin cfg0.N) (r : Fin 1024) (z : Fin 1) :
    k0_pay4 (F := Ideal) (iblk m c 0 t) (iblk m c 1 t) (ix2 r z)
      = Finset.univ.fold min ⊤ (fun l : Fin 2048 => tileCell (iblk m c 0 t) (iblk m c 1 t) r l) :=
  tileMin_apply (iblk m c 0 t) (iblk m c 1 t) r z

/-- Its entries are the squared distances from point 1024 i + r to the points 2048 j .. 2048 j + 2047. -/
theorem candidate_cell (c : Dev nD) (t : Fin cfg0.N) (r : Fin 1024) (b : Fin 4) (p : Fin 8192)
    (hb : b.val = t.val / 32) (hp : p.val = 1024 * (t.val / 4 % 8) + r.val)
    (l : Fin 2048) (mm : Fin 8192) (hmm : mm.val = 2048 * (t.val % 4) + l.val) :
    tileCell (iblk m c 0 t) (iblk m c 1 t) r l = sqDist (X m c) (Y m c) b p mm :=
  tileCell_congr (iblk m c 0 t) (iblk m c 1 t) (X m c) (Y m c) r l b p mm
    (fun k => xblk_apply m c t r k b p hb hp) (fun k => yblk_apply m c t k l b mm hb hmm)

/-- The first tile of a row block: +infinity joined with the first 2048 candidates. -/
theorem first_tile (c : Dev nD) (t : Fin cfg0.N) (h0 : t.val % 4 = 0) (r : Fin 1024) (z : Fin 1) (b : Fin 4) (p : Fin 8192)
    (hb : b.val = t.val / 32) (hp : p.val = 1024 * (t.val / 4 % 8) + r.val) :
    (outsAt0 m c t.val t.isLt).2 (ix2 r z) = minBelow (fun mm => sqDist (X m c) (Y m c) b p mm) (2048 * (t.val % 4 + 1)) := by
  have h1 : ¬t.val % 4 = 3 := by omega
  rw [outsAt0_A m c t h0 h1]
  dsimp only
  rw [scratch_A (F := Ideal) c (grid0.coords t) (ms0_0 t) (hs0_0 t) (ms0_1 t) (hs0_1 t) (ms0_2 t) (hs0_2 t) (ms0_3 t) (hs0_3 t)
      scM0_0 (Memref.isWhole_whole _) ((hcond0_0 t).mpr h0) (fun h => h1 ((hcond0_1 t).mp h))
      (iblk m c 0 t) (iblk m c 1 t) (iblk m c 2 t)]
  refine (join_apply (k0_pay4 (F := Ideal) (iblk m c 0 t) (iblk m c 1 t)) (k0_pay3 (F := Ideal)) (ix2 r z)).trans ?_
  refine (congrArg₂ min (reset_apply (ix2 r z)) (candidate m c t r z)).trans ?_
  have hs := minBelow_step (fun mm => sqDist (X m c) (Y m c) b p mm) 0 (by omega) (fun l : Fin 2048 => tileCell (iblk m c 0 t) (iblk m c 1 t) r l)
    (fun l mm hmm => candidate_cell m c t r b p hb hp l mm (by rw [h0]; exact hmm))
  rw [Nat.mul_zero, minBelow_zero] at hs
  rw [h0]
  exact hs

/-- A later tile: what the tile before left, joined with the next 2048 candidates. -/
theorem later_tile (c : Dev nD) (t : Fin cfg0.N) (h0 : ¬t.val % 4 = 0) (r : Fin 1024) (z : Fin 1) (b : Fin 4) (p : Fin 8192)
    (hb : b.val = t.val / 32) (hp : p.val = 1024 * (t.val / 4 % 8) + r.val)
    (hprev : (outsAt0 m c (t.val - 1) (Nat.lt_of_le_of_lt (Nat.sub_le _ _) t.isLt)).2 (ix2 r z) = minBelow (fun mm => sqDist (X m c) (Y m c) b p mm) (2048 * (t.val % 4))) :
    (outsAt0 m c t.val t.isLt).2 (ix2 r z) = minBelow (fun mm => sqDist (X m c) (Y m c) b p mm) (2048 * (t.val % 4 + 1)) := by
  have hstep := minBelow_step (fun mm => sqDist (X m c) (Y m c) b p mm) (t.val % 4) (by omega) (fun l : Fin 2048 => tileCell (iblk m c 0 t) (iblk m c 1 t) r l)
    (fun l mm hmm => candidate_cell m c t r b p hb hp l mm hmm)
  by_cases h1 : t.val % 4 = 3
  · rw [outsAt0_C m c t h0 h1]
    dsimp only
    rw [scratch_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
        (iblk m c 0 t) (iblk m c 1 t) (iblk m c 2 t) (outsAt0 m c (t.val - 1) (Nat.lt_of_le_of_lt (Nat.sub_le _ _) t.isLt)).2]
    refine (join_apply (k0_pay4 (F := Ideal) (iblk m c 0 t) (iblk m c 1 t)) (outsAt0 m c (t.val - 1) (Nat.lt_of_le_of_lt (Nat.sub_le _ _) t.isLt)).2 (ix2 r z)).trans ?_
    exact (congrArg₂ min hprev (candidate m c t r z)).trans hstep
  · rw [outsAt0_B m c t h0 h1]
    dsimp only
    rw [scratch_B (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h))
        (iblk m c 0 t) (iblk m c 1 t) (iblk m c 2 t) (outsAt0 m c (t.val - 1) (Nat.lt_of_le_of_lt (Nat.sub_le _ _) t.isLt)).2]
    refine (join_apply (k0_pay4 (F := Ideal) (iblk m c 0 t) (iblk m c 1 t)) (outsAt0 m c (t.val - 1) (Nat.lt_of_le_of_lt (Nat.sub_le _ _) t.isLt)).2 (ix2 r z)).trans ?_
    exact (congrArg₂ min hprev (candidate m c t r z)).trans hstep

/-- THE INVARIANT: after point n the scratch row r holds the running minimum over the tiles seen so far. -/
theorem scratch_after (c : Dev nD) : ∀ (n : ℕ) (hn : n < cfg0.N) (r : Fin 1024) (z : Fin 1) (b : Fin 4) (p : Fin 8192),
    b.val = n / 32 → p.val = 1024 * (n / 4 % 8) + r.val →
    (outsAt0 m c n hn).2 (ix2 r z) = minBelow (fun mm => sqDist (X m c) (Y m c) b p mm) (2048 * (n % 4 + 1)) := by
  intro n
  induction n with
  | zero =>
    intro hn r z b p hb hp
    exact first_tile m c ⟨0, hn⟩ rfl r z b p hb hp
  | succ n ih =>
    intro hn r z b p hb hp
    by_cases h0 : (n + 1) % 4 = 0
    · exact first_tile m c ⟨n + 1, hn⟩ h0 r z b p hb hp
    · have hprev := ih (Nat.lt_of_succ_lt hn) r z b p (by omega) (by omega)
      rw [show n % 4 + 1 = (n + 1) % 4 by omega] at hprev
      exact later_tile m c ⟨n + 1, hn⟩ h0 r z b p hb hp hprev

/-- At the last tile of a block the output's staging buffer is the finish of the scratch as that tile leaves it. -/
theorem out_of_scratch (c : Dev nD) (t : Fin cfg0.N) (h3 : t.val % 4 = 3) :
    (outsAt0 m c t.val t.isLt).1 = k0_pay2 (F := Ideal) (outsAt0 m c t.val t.isLt).2 (iblk m c 2 t) := by
  have h0 : ¬t.val % 4 = 0 := by omega
  rw [outsAt0_C m c t h0 h3]
  dsimp only
  rw [out_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2,
    scratch_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2]

/-- THE OUTPUT BLOCK at the last tile: row r is the weighted nearest distance of point 1024 i + r. -/
theorem out_apply (c : Dev nD) (t : Fin cfg0.N) (h3 : t.val % 4 = 3) (y : S1x1024x1.Idx) (b : Fin 4) (p : Fin 8192)
    (hb : b.val = t.val / 32) (hp : p.val = 1024 * (t.val / 4 % 8) + (y 1).val) :
    (outsAt0 m c t.val t.isLt).1 y = weighted (X m c) (Y m c) (W m c) b p := by
  obtain ⟨u, r, z, rfl⟩ : ∃ (u : Fin 1) (r : Fin 1024) (z : Fin 1), y = ix3 u r z := ⟨y 0, y 1, y 2, eq_ix3 y⟩
  rw [out_of_scratch m c t h3]
  refine (finish_apply (outsAt0 m c t.val t.isLt).2 (iblk m c 2 t) u r z).trans ?_
  unfold weighted
  refine congrArg₂ (· * ·) (congrArg Ideal.sqrt ?_) (wblk_apply m c t r z b p hb hp)
  refine (scratch_after m c t.val t.isLt r z b p hb hp).trans ?_
  rw [h3, nearest_eq_minBelow]

end Cert.KernelIdeal.Running

end
-- ==== Proof.Result.lean ====
/-
  What the call leaves in its output array, and what the program returns.

  Only the last tile of each row block writes the output block back, and these blocks tile the [4, 8192, 1] array:
  entry (b, n, 0) lies in the block of point 32 b + 4 (n / 1024) + 3.  So the array ends holding, at every entry,
  the weighted nearest distance of its point.  The host then drops the unit axis, sums every entry, sums the
  weights, and divides.
-/
import proofs.«137180_j58342835749039_2_alg».proof.Proof.Running
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Nearest
open Cert.KernelIdeal.Blocks Cert.KernelIdeal.Running

variable (m : (ℓ : Loc nD τ sig) → Buf (Elt Ideal) ℓ) (ρ : Dev nD → PrngReg)

/-- The output array: entry (b, n, ·) is the weighted nearest distance of point n of batch entry b. -/
def dists (c : Dev nD) : Buf (Elt Ideal) ((c : Thread nD τ).loc main_v2) :=
  fun i : S4x8192x1.Idx => weighted (X m c) (Y m c) (W m c) (i 0) (i 1)

/-- What a last tile writes back is its block of that array. -/
theorem flushed_eq (c : Dev nD) (t : Fin cfg0.N) (hf : (cfg0.win 3).flush t = true) :
    (dats m 0 c).flushed 3 t = ((cfg0.win 3).blk t).view.read (Elt Ideal) (dists m c) := by
  have h3 : t.val % 4 = 3 := (flush0_3 t).mp hf
  have hN : cfg0.N = 128 := N_0
  have ht : t.val < 128 := lt_of_lt_of_eq t.isLt hN
  obtain ⟨e0, e1, e2⟩ := where_o t
  show (cfg0.win 3).cut (grid0.coords t) ((dats m 0 c).after 3 t) = _
  rw [after0_3]
  funext j
  rw [View.read_apply]
  have hj0 : (j 0).val < 1 := (j 0).isLt
  have hj1 : (j 1).val < 1024 := (j 1).isLt
  refine (out_apply m c t h3 ((cfg0.win 3).xinj (grid0.coords t) j) ⟨t.val / 32, by omega⟩
    ⟨1024 * (t.val / 4 % 8) + (j 1).val, by omega⟩ rfl rfl).trans ?_
  unfold dists
  refine congrArg₂ (weighted (X m c) (Y m c) (W m c)) (Fin.ext ?_) (Fin.ext ?_)
  · show t.val / 32 = win0_3.index t 0 * 1 + 1 * (j 0).val
    omega
  · show 1024 * (t.val / 4 % 8) + (j 1).val = win0_3.index t 1 * 1024 + 1 * (j 1).val
    omega

/-- Every entry of the array lies in the block some last tile writes back. -/
theorem cover (i : S4x8192x1.Idx) : ∃ t : Fin cfg0.N, (cfg0.win 3).flush t = true ∧ i ∈ ((cfg0.win 3).blk t).view.set := by
  have hN : cfg0.N = 128 := N_0
  have h0 : (i 0).val < 4 := (i 0).isLt
  have h1 : (i 1).val < 8192 := (i 1).isLt
  have h2 : (i 2).val < 1 := (i 2).isLt
  let t : Fin cfg0.N := ⟨32 * (i 0).val + 4 * ((i 1).val / 1024) + 3, by omega⟩
  have tv : t.val = 32 * (i 0).val + 4 * ((i 1).val / 1024) + 3 := rfl
  obtain ⟨e0, e1, e2⟩ := where_o t
  refine ⟨t, (flush0_3 t).mpr (by omega), ?_⟩
  show i ∈ ((View.whole main_v2).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 1024 ≤ (i 1).val ∧ (i 1).val < win0_3.index t 1 * 1024 + 1024; omega
  | ⟨2, _⟩ => show win0_3.index t 2 * 1 ≤ (i 2).val ∧ (i 2).val < win0_3.index t 2 * 1 + 1; omega

/-- So the output array ends at the weighted nearest distances. -/
theorem final_dists (c : Dev nD) : (dats m 0 c).arrAt 3 cfg0.N = dists m c :=
  (dats m 0 c).arrAt_eq_of_cover 3 (dists m c) (flushed_eq m c) cover

/-- The sum of every entry over the sum of the weights. -/
def ratio (Z Wt : FVec Ideal S4x8192 .f32) : FVec Ideal S_ .f32 :=
  Host.divf (Host.reduceAdd Z (constant (F := Ideal) S_ .f32 0x00000000#32) reducesTo_S4x8192_S_d0_1 h_S_)
    (Host.reduceAdd Wt (constant (F := Ideal) S_ .f32 0x00000000#32) reducesTo_S4x8192_S_d0_1 h_S_)

/-- The program's result, from the array the call left. -/
theorem tail_eq (c : Dev nD) :
    Pipeline.afterTail₀ cfgs (dats m) 0 (V0 m) [hostOps1] c main_v6
      = ratio (shapeCast S4x8192 (dists m c) shapeCasts_S4x8192x1_S4x8192) (m ((c : Thread nD τ).loc main_arg2)) := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.devRef .tc main_v2)
      = dists m c :=
    (Pipeline.withArrays_arr spec0 launch0.win.arr_inj c _ _ 3).trans (final_dists m c)
  have ea : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e2, ea]
  rfl

/-- THE RUN, READ: every weakly fair execution ends with the result at that ratio and the three arguments unchanged. -/
theorem run : θ_run defs (onTc (τ := τ) (main (F := Ideal))) ⟨m, fun _ => 0, ρ⟩ fun r => ∀ c : Dev nD,
      r.2.mem ((c.tc : Thread nD τ).loc main_v6)
        = ratio (shapeCast S4x8192 (dists m c) shapeCasts_S4x8192x1_S4x8192) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v6 (Pipeline.mem_restRefs_of main_v6 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference, read at an entry.

  Its distance matrix entry (b, n, m) is the clamped squared distance of point n of the first cloud and point m of
  the second (the two squared lengths are sums from a zero that adds nothing, the inner product is the contraction's
  sum over the three coordinates); its row minimum over m, from +infinity, is the nearest squared distance; and
  the array it finally sums is, entry by entry, the weighted nearest distance.
-/
import proofs.«137180_j58342835749039_2_alg».proof.Proof.Gen.ReferenceIdeal.Run
import proofs.«137180_j58342835749039_2_alg».proof.Proof.Gen.ReferenceIdeal.Read
import proofs.«137180_j58342835749039_2_alg».proof.Proof.Spec
import Idealize.ShloMosaic.Lib.ValueIdx
import Idealize.ShloMosaic.PureOps.Ideal.Laws
import Idealize.ShloMosaic.PureOps.Reduce

noncomputable section

open Idealize.ShloMosaic Idealize.ShloMosaic.ValueIdx

namespace Cert.ReferenceIdeal.RefValue

open Cert.ReferenceIdeal Cert.ReferenceIdeal.Gen Cert.ReferenceIdeal.Read Cert.Nearest

/-- The distance matrix at (b, n, mm). -/
theorem cell_apply (x0 x1 : (⟨S4x8192x3, .f32⟩ : BufTy).Contents (Elt Ideal)) (b : Fin 4) (n mm : Fin 8192) :
    val_main_v14 (F := Ideal) x0 x1 (ix3 b n mm) = sqDist x0 x1 b n mm := by
  have e1 : ∀ k : Fin 3, idx_main_v1 (idx_main_v5 (idx_main_v7 (ix3 b n mm))) k = ix3 b n k :=
    fun k => funext fun a => Fin.ext (by match a with | ⟨0, _⟩ => rfl | ⟨1, _⟩ => rfl | ⟨2, _⟩ => rfl)
  have e2 : ∀ k : Fin 3, idx_main_v3 (idx_main_v6 (idx_main_v8 (ix3 b n mm))) k = ix3 b mm k :=
    fun k => funext fun a => Fin.ext (by match a with | ⟨0, _⟩ => rfl | ⟨1, _⟩ => rfl | ⟨2, _⟩ => rfl)
  have e3 : ∀ k : Fin 3, lidx_main_v4 (ix3 b n mm) k = ix3 b n k :=
    fun k => funext fun a => Fin.ext (by match a with | ⟨0, _⟩ => rfl | ⟨1, _⟩ => rfl | ⟨2, _⟩ => rfl)
  have e4 : ∀ k : Fin 3, ridx_main_v4 (ix3 b n mm) k = ix3 b mm k :=
    fun k => funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  unfold sqDist sqNorm inner3
  simp only [e1, e2, e3, e4, val_main_v0_apply, val_main_v2_apply, val_main_cst_apply, val_main_cst_0_apply,
    val_main_cst_1_apply, val_main_cst_2_apply, Ideal.ofBits_def, Ideal.mulf_def, Ideal.addf_def, Ideal.subf_def,
    Ideal.maximumf_def, Ideal.ofBits_zero_f32, zero_add]

/-- The row minimum at (b, n) is the nearest squared distance. -/
theorem nearest_apply (x0 x1 : (⟨S4x8192x3, .f32⟩ : BufTy).Contents (Elt Ideal)) (b : Fin 4) (n : Fin 8192) :
    val_main_v15 (F := Ideal) x0 x1 (ix2 b n) = nearest x0 x1 b n := by
  have hR : S4x8192x8192.Reduces [2] S4x8192 := by decide
  unfold val_main_v15
  refine (Host.reduce_eq_fold_single FloatOps.minimumf _ _ reducesTo_S4x8192x8192_S4x8192_d2 hR h_S_ (ix2 b n)).trans ?_
  have e : (val_main_v14 (F := Ideal) x0 x1 ∘ hR.lift (ix2 b n)) = fun mm : Fin 8192 => sqDist x0 x1 b n mm :=
    funext fun mm => (congrArg (val_main_v14 (F := Ideal) x0 x1)
      (funext fun a => Fin.ext (by match a with | ⟨0, _⟩ => rfl | ⟨1, _⟩ => rfl | ⟨2, _⟩ => rfl))).trans (cell_apply x0 x1 b n mm)
  unfold nearest
  show Finset.univ.fold min (Ideal.ofBits .f32 0x7F800000#32) (val_main_v14 (F := Ideal) x0 x1 ∘ hR.lift (ix2 b n)) = _
  rw [e, inf_eq_top]
  rfl

/-- The array the reference sums is the weighted nearest distance, entry by entry. -/
theorem weighted_apply (x0 x1 : (⟨S4x8192x3, .f32⟩ : BufTy).Contents (Elt Ideal)) (x2 : (⟨S4x8192, .f32⟩ : BufTy).Contents (Elt Ideal))
    (b : Fin 4) (n : Fin 8192) :
    val_main_v17 (F := Ideal) x0 x1 x2 (ix2 b n) = weighted x0 x1 x2 b n := by
  rw [val_main_v17_apply, val_main_v16_apply, nearest_apply]
  rfl

end Cert.ReferenceIdeal.RefValue

end
-- ==== Proof.lean ====
/-
  Nearest-neighbour weighted distance: the tiled kernel against the plain reference, over the extended reals.

  For every point n of the first cloud both programs take the minimum over the points m of the second cloud, from
  +infinity, of max ((|x_n|^2 + |y_m|^2) - 2 <x_n, y_m>) 0, then its square root times the point's weight, and return
  the sum of these over the sum of the weights.  The reference forms the whole [4, 8192, 8192] distance matrix and
  reduces its rows.  The kernel walks a [4, 8, 4] grid: for each batch entry and block of 1024 rows it visits four
  tiles of 2048 columns, keeps a running row minimum in a scratch column across them — reset to +infinity at the
  first tile, joined by min at each — and at the fourth tile writes the block of square roots times weights.

  The two agree without any finiteness assumption: the inner product written as three products added is the
  contraction's sum over three coordinates (addition of extended reals is commutative and associative), the
  squared lengths are sums started from a zero that adds nothing, and a minimum over 8192 candidates taken 2048 at a
  time is the minimum over all of them (min is a lattice operation).  The square root, the product with the weight,
  the two total sums and the quotient are the same operations on both sides.

  The idealization rewrote nothing, so that claim is trivial; the kernel's two frames are the generated ones, the
  reference's frame is its generated run with the result dropped.
-/
import proofs.«137180_j58342835749039_2_alg».proof.Defs
import proofs.«137180_j58342835749039_2_alg».proof.Proof.Gen.Kernel
import proofs.«137180_j58342835749039_2_alg».proof.Proof.Gen.Kernel.Frame
import proofs.«137180_j58342835749039_2_alg».proof.Proof.Gen.KernelIdeal
import proofs.«137180_j58342835749039_2_alg».proof.Proof.Gen.KernelIdeal.Frame
import proofs.«137180_j58342835749039_2_alg».proof.Proof.Gen.ReferenceIdeal
import proofs.«137180_j58342835749039_2_alg».proof.Proof.Gen.ReferenceIdeal.Run
import proofs.«137180_j58342835749039_2_alg».proof.Proof.Gen.ReferenceIdeal.Read
import proofs.«137180_j58342835749039_2_alg».proof.Proof.Gen.Pre_finite_inputs
import proofs.«137180_j58342835749039_2_alg».proof.Proof.Result
import proofs.«137180_j58342835749039_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The call's output array with its unit axis dropped is, entry by entry, the array the reference sums: both hold
    the weighted nearest distance of point n of batch entry b at (b, n). -/
theorem summed_eq (m : (ℓ : Loc Cert.KernelIdeal.nD Cert.KernelIdeal.τ Cert.KernelIdeal.sig) → Buf (Elt Ideal) ℓ)
    (c : Dev Cert.KernelIdeal.nD) :
    shapeCast Cert.KernelIdeal.S4x8192 (Cert.KernelIdeal.Result.dists m c) Cert.KernelIdeal.Gen.shapeCasts_S4x8192x1_S4x8192
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨b, n, rfl⟩ : ∃ (b : Fin 4) (n : Fin 8192), i = ix2 b n := ⟨i 0, i 1, eq_ix2 i⟩
  refine (shapeCast_apply _ _ (ix2 b n) (ix3 b n (0 : Fin 1)) ?_).trans ?_
  · rw [Shape.rowMajor_val_three, Shape.rowMajor_val_two]
    show (b.val * 8192 + n.val) * 1 + ((0 : Fin 1) : ℕ) = b.val * 8192 + n.val
    simp
  · exact (Cert.ReferenceIdeal.RefValue.weighted_apply _ _ _ b n).symm

/-- At the extended reals the kernel's result is the sum of the weighted nearest distances over the sum of the
    weights, and so is the reference's, of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2]
  unfold Cert.KernelIdeal.Result.ratio
  rw [summed_eq m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
